-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x4096 : Shape := ⟨3, ![4, 4096, 4096]⟩
abbrev S128x128 : Shape := ⟨2, ![128, 128]⟩
abbrev S_ : Shape := ⟨0, ![]⟩

class Facts : Prop where
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S4x4096x4096 .f32) (main_arg1 : FVec F S128x128 .f32) : IVec S_ 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_c : IVec S_ 1 := constantI S_ 1 1#1
  let main_v3 : IVec S_ 1 := (fun x v => Host.reduce IntOp.andi x v reducesTo_S4x4096x4096_S_d0_1_2 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  main_v8
-- ==== Kernel.lean ====
abbrev S4x4096x4096 : Shape := ⟨3, ![4, 4096, 4096]⟩
abbrev S128x128 : Shape := ⟨2, ![128, 128]⟩
abbrev S4x4096x32x128 : Shape := ⟨4, ![4, 4096, 32, 128]⟩
abbrev S524288x128 : Shape := ⟨2, ![524288, 128]⟩
abbrev S16384x128 : Shape := ⟨2, ![16384, 128]⟩
abbrev S8192x128 : Shape := ⟨2, ![8192, 128]⟩

abbrev nBuf : Space → Nat
  | .hbm => 7
  | .vmem => 5
  | .smem => 0
  | _ => 0

abbrev bufTy : (tb : Table) → Fin (tcTables nBuf tb) → BufTy
  | .hbm, ⟨0, _⟩ => ⟨S4x4096x4096, .f32⟩
  | .hbm, ⟨1, _⟩ => ⟨S128x128, .f32⟩
  | .hbm, ⟨2, _⟩ => ⟨S128x128, .bf16⟩
  | .hbm, ⟨3, _⟩ => ⟨S4x4096x32x128, .f32⟩
  | .hbm, ⟨4, _⟩ => ⟨S524288x128, .f32⟩
  | .hbm, ⟨5, _⟩ => ⟨S524288x128, .f32⟩
  | .hbm, ⟨6, _⟩ => ⟨S4x4096x4096, .f32⟩
  | .local _ .vmem, ⟨0, _⟩ => ⟨S16384x128, .f32⟩
  | .local _ .vmem, ⟨1, _⟩ => ⟨S16384x128, .f32⟩
  | .local _ .vmem, ⟨2, _⟩ => ⟨S128x128, .bf16⟩
  | .local _ .vmem, ⟨3, _⟩ => ⟨S16384x128, .f32⟩
  | .local _ .vmem, ⟨4, _⟩ => ⟨S16384x128, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def k0_mult1 : BitVec 32 :=
  let c0_i32 : BitVec 32 := 0#32
  let c8192_i32 : BitVec 32 := 8192#32
  let v2 : BitVec 32 := Scalar.muli c0_i32 c8192_i32
  v2
def k0_off1 (c0_i32 : BitVec 32) : Fin 2 → Nat :=
  let c8192_i32 : BitVec 32 := 8192#32
  let v2 : BitVec 32 := Scalar.muli c0_i32 c8192_i32
  let v3 : BitVec 32 := v2
  let v4 : Index := Scalar.indexCast v3
  let c0_1 : Index := 0#32
  ![v4.toNat, 0]
def k0_mult2 : BitVec 32 :=
  let c1_i32 : BitVec 32 := 1#32
  let c8192_i32_3 : BitVec 32 := 8192#32
  let v11 : BitVec 32 := Scalar.muli c1_i32 c8192_i32_3
  v11
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16384x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S16384x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bitsLt_bf16_f32 : FTy.bits .bf16 < FTy.bits .f32
  shapeCasts_S4x4096x4096_S4x4096x32x128 : S4x4096x4096.ShapeCasts S4x4096x32x128
  shapeCasts_S4x4096x32x128_S524288x128 : S4x4096x32x128.ShapeCasts S524288x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  h_S8192x128 : 0 < S8192x128.numel
  shapeCasts_S8192x128_S8192x128 : S8192x128.ShapeCasts S8192x128
  shapeCasts_S524288x128_S4x4096x4096 : S524288x128.ShapeCasts S4x4096x4096
  dot_S8192x128_S128x128_S8192x128_1_0_0_1_n_n_wf : DotDims.WF S8192x128 S128x128 S8192x128 [1] [0] [0] [1] [] []
  hrank0 : 0 < grid0.rank
  k0_mult1_dvd : 8192 ∣ k0_mult1.toNat
  k0_off1_inb : ∀ (r : Fin 2), ∀ a, (k0_off1 (BitVec.ofNat 32 r.val)) a + S8192x128.size a ≤ S16384x128.size a
  k0_mult2_dvd : 8192 ∣ k0_mult2.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x128.size a ≤ S524288x128.size a
  hwx0_0 : ∀ i : grid0.Coords, EltTy.bits .f32 = 32 ∨ (Rect.block (s := S524288x128) S16384x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16384x128.size a ≤ S524288x128.size a
  hwx0_2 : ∀ i : grid0.Coords, EltTy.bits .f32 = 32 ∨ (Rect.block (s := S524288x128) S16384x128.size (cc0_transform_2 i) (hinb0_2 i)).WholeWords (EltTy.packing .f32)

variable [Facts₀]

def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf

abbrev win0_0 : Pipeline.Window sig grid0 :=
  Pipeline.Window.ofSpec (Memref.whole main_v2) S16384x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S16384x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x4096x4096 : Shape := ⟨3, ![4, 4096, 4096]⟩
abbrev S128x128 : Shape := ⟨2, ![128, 128]⟩
abbrev S4x4096x32x128 : Shape := ⟨4, ![4, 4096, 32, 128]⟩

abbrev nBuf : Space → Nat
  | .hbm => 5
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S128x128, .f32⟩
  | .hbm, ⟨2, _⟩ => ⟨S4x4096x32x128, .f32⟩
  | .hbm, ⟨3, _⟩ => ⟨S4x4096x32x128, .f32⟩
  | .hbm, ⟨4, _⟩ => ⟨S4x4096x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]

class Facts₀ : Prop where
  shapeCasts_S4x4096x4096_S4x4096x32x128 : S4x4096x4096.ShapeCasts S4x4096x32x128
  shapeCasts_S4x4096x32x128_S4x4096x4096 : S4x4096x32x128.ShapeCasts S4x4096x4096
  dot_S4x4096x32x128_S128x128_S4x4096x32x128_3_0_012_1_n_n_wf : DotDims.WF S4x4096x32x128 S128x128 S4x4096x32x128 [3] [0] [0, 1, 2] [1] [] []

variable [Facts₀]

def dot_S4x4096x32x128_S128x128_S4x4096x32x128_3_0_012_1_n_n : DotDims S4x4096x32x128 S128x128 S4x4096x32x128 where
  lhsContracting := [3]
  rhsContracting := [0]
  lhsNonContracting := [0, 1, 2]
  rhsNonContracting := [1]
  lhsBatch := []
  rhsBatch := []
  wf := dot_S4x4096x32x128_S128x128_S4x4096x32x128_3_0_012_1_n_n_wf

class Facts : Prop extends Facts₀ where

variable [Facts]
-- ==== Proof.LibMatDot.lean ====
/-
  A matrix product of two rank-2 operands, `x · y`, read at an entry.

  For dimension numbers `d` over operands of shapes [M, K] and [K, N] and a result of shape [M, N] whose one
  contracted axis is the second of the left operand and the first of the right — given as the four coordinate
  facts of `d`'s operand index maps — a `tpu.matmul` into the zero accumulator at the ideal instance is, at
  entry (p, q),

      Σ_{k < K} lhs[p, k] · rhs[k, q].

  The contraction's index type is re-indexed to `Fin K` through `ValueIdx.contrEquiv1`.
-/
import Idealize.ShloMosaic.PureOps.Ideal.Laws
import Idealize.ShloMosaic.Lib.ValueIdx

noncomputable section

open scoped BigOperators

namespace Idealize.ShloMosaic.ValueIdx

open Idealize.ShloMosaic

/-- `x · y` into the zero accumulator, at entry (p, q): the sum over the shared axis of the products of row `p` of
    the left operand and column `q` of the right. The hypotheses say where the record's operand index maps read:
    the left operand at (row of the entry, contraction position), the right at (contraction position, column of
    the entry). -/
theorem mat_dot_zero {M N K : Nat} {φ₁ φ₂ : FTy}
    (d : DotDims ⟨2, ![M, K]⟩ ⟨2, ![K, N]⟩ ⟨2, ![M, N]⟩) (prec : Option ContractPrecision)
    (hr : d.contr.rank = 1) (hs : d.contr.size ⟨0, by omega⟩ = K)
    (hl0 : ∀ (j : (⟨2, ![M, N]⟩ : Shape).Idx) (c : d.contr.Idx), (d.lhsIdx j c 0).val = (j 0).val)
    (hl1 : ∀ (j : (⟨2, ![M, N]⟩ : Shape).Idx) (c : d.contr.Idx), (d.lhsIdx j c 1).val = (c ⟨0, by omega⟩).val)
    (hr0 : ∀ (j : (⟨2, ![M, N]⟩ : Shape).Idx) (c : d.contr.Idx), (d.rhsIdx j c 0).val = (c ⟨0, by omega⟩).val)
    (hr1 : ∀ (j : (⟨2, ![M, N]⟩ : Shape).Idx) (c : d.contr.Idx), (d.rhsIdx j c 1).val = (j 1).val)
    (lhs : FVec Ideal ⟨2, ![M, K]⟩ φ₁) (rhs : FVec Ideal ⟨2, ![K, N]⟩ φ₂) (p : Fin M) (q : Fin N) :
    FloatOps.matmul d prec lhs rhs (constant (F := Ideal) ⟨2, ![M, N]⟩ .f32 0x00000000#32) (ix2 p q)
      = ∑ k : Fin K, lhs (ix2 p k) * rhs (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

end Idealize.ShloMosaic.ValueIdx

end
-- ==== Proof.KernelBlock.lean ====
/-
  One grid point of the kernel: a block of 16384 rows of the [524288, 128] matrix times `R`.

  The body works on the block in two halves of 8192 rows.  Each half is loaded, multiplied by the resident
  128 × 128 matrix on the matrix unit into a zero accumulator, and stored over the same rows of the output block.
  A change of float format is the identity on the extended reals, so at entry (p, q) of a half the product is
  `∑ₖ half[p, k] · R[k, q]`.  The two stores tile the block, and both restrict ONE function of the block index:
  row `r` of the output block is row `r` of the input block times `R`.
-/
import proofs.«177849_j70746701300434_2_alg».proof.Proof.Gen.KernelIdeal.Frame
import proofs.«177849_j70746701300434_2_alg».proof.Proof.LibMatDot
import Idealize.ShloMosaic.Lib.Pipeline.Value
import Idealize.ShloMosaic.Lib.Tactic
import Idealize.ShloMosaic.Lib.ValueIdx

noncomputable section

open scoped BigOperators

namespace Cert.Rotation.Block

open Cert.KernelIdeal Cert.KernelIdeal.Gen Idealize.ShloMosaic Idealize.ShloMosaic.ValueIdx
open Idealize.ShloMosaic.TcCoe Idealize.SL.Sem

/-! ## Where the matrix unit's dimension numbers read the operands -/

theorem dot_left_row (j : S8192x128.Idx) (q : dot_S8192x128_S128x128_S8192x128_1_0_0_1_n_n.contr.Idx) : (dot_S8192x128_S128x128_S8192x128_1_0_0_1_n_n.lhsIdx j q 0).val = (j 0).val := by
  unfold DotDims.lhsIdx
  rw [dif_neg (show ¬(0 : Fin S8192x128.rank) ∈ dot_S8192x128_S128x128_S8192x128_1_0_0_1_n_n.lhsBatch by decide),
    dif_pos (show (0 : Fin S8192x128.rank) ∈ dot_S8192x128_S128x128_S8192x128_1_0_0_1_n_n.lhsNonContracting by decide)]
  rfl

theorem dot_left_col (j : S8192x128.Idx) (q : dot_S8192x128_S128x128_S8192x128_1_0_0_1_n_n.contr.Idx) :
    (dot_S8192x128_S128x128_S8192x128_1_0_0_1_n_n.lhsIdx j q 1).val = (q ⟨0, by decide⟩).val :=
  dot_S8192x128_S128x128_S8192x128_1_0_0_1_n_n.lhsIdx_val_of_single rfl j q

theorem dot_right_row (j : S8192x128.Idx) (q : dot_S8192x128_S128x128_S8192x128_1_0_0_1_n_n.contr.Idx) :
    (dot_S8192x128_S128x128_S8192x128_1_0_0_1_n_n.rhsIdx j q 0).val = (q ⟨0, by decide⟩).val :=
  dot_S8192x128_S128x128_S8192x128_1_0_0_1_n_n.rhsIdx_val_of_single rfl j q

theorem dot_right_col (j : S8192x128.Idx) (q : dot_S8192x128_S128x128_S8192x128_1_0_0_1_n_n.contr.Idx) : (dot_S8192x128_S128x128_S8192x128_1_0_0_1_n_n.rhsIdx j q 1).val = (j 1).val := by
  unfold DotDims.rhsIdx
  rw [dif_neg (show ¬(1 : Fin S128x128.rank) ∈ dot_S8192x128_S128x128_S8192x128_1_0_0_1_n_n.rhsBatch by decide),
    dif_pos (show (1 : Fin S128x128.rank) ∈ dot_S8192x128_S128x128_S8192x128_1_0_0_1_n_n.rhsNonContracting by decide)]
  rfl

/-! ## A half block times the matrix, entry by entry -/

/-- The first half's product at entry (p, q). -/
theorem first_half_apply (R : Vec Ideal S128x128 .bf16) (h : Vec Ideal S8192x128 .f32) (p : Fin 8192) (q : Fin 128) :
    k0_pay2 (F := Ideal) R h (ix2 p q) = ∑ k : Fin 128, h (ix2 p k) * R (ix2 k q) := by
  unfold k0_pay2 k0_pay1
  refine (mat_dot_zero dot_S8192x128_S128x128_S8192x128_1_0_0_1_n_n none rfl rfl dot_left_row dot_left_col dot_right_row dot_right_col
    (truncf .bf16 (shapeCast S8192x128 h Facts₀.shapeCasts_S8192x128_S8192x128) Facts₀.bitsLt_bf16_f32)
    (shapeCast S128x128 R Facts₀.shapeCasts_S128x128_S128x128) p q).trans ?_
  rw [shapeCast_self, shapeCast_self]
  rfl

/-- The second half's product at entry (p, q). -/
theorem second_half_apply (R : Vec Ideal S128x128 .bf16) (h : Vec Ideal S8192x128 .f32) (p : Fin 8192) (q : Fin 128) :
    k0_pay3 (F := Ideal) R h (ix2 p q) = ∑ k : Fin 128, h (ix2 p k) * R (ix2 k q) := by
  unfold k0_pay3 k0_pay1
  refine (mat_dot_zero dot_S8192x128_S128x128_S8192x128_1_0_0_1_n_n none rfl rfl dot_left_row dot_left_col dot_right_row dot_right_col
    (truncf .bf16 (shapeCast S8192x128 h Facts₀.shapeCasts_S8192x128_S8192x128) Facts₀.bitsLt_bf16_f32)
    (shapeCast S128x128 R Facts₀.shapeCasts_S128x128_S128x128) p q).trans ?_
  rw [shapeCast_self, shapeCast_self]
  rfl

/-! ## The whole block -/

/-- Every row of a block of rows, as a row vector, times `R`. -/
def rowsTimes (X : Vec Ideal S16384x128 .f32) (R : Vec Ideal S128x128 .bf16) : Vec Ideal S16384x128 .f32 :=
  fun y => ∑ k : Fin 128, X (ix2 (y 0) k) * R (ix2 k (y 1))

/-- What the body leaves in the output's staging buffer: the input block's rows times `R`. -/
theorem block_out (c : Dev nD) (i : grid0.Coords) (a1 : Memref sig .tc .vmem S16384x128 .f32) (h1 : a1.IsWhole)
    (a2 : Memref sig .tc .vmem S128x128 .bf16) (h2 : a2.IsWhole) (a3 : Memref sig .tc .vmem S16384x128 .f32) (h3 : a3.IsWhole)
    (X : Vec Ideal S16384x128 .f32) (R : Vec Ideal S128x128 .bf16) :
    out0_A_2 (F := Ideal) c i a1 h1 a2 h2 a3 h3 X R = rowsTimes X R := by
  unfold out0_A_2
  rw [View.read_writes_eq_canon _ _ _ (cover0_A_2 c i a1 h1 a2 h2 a3 h3 X R)]
  funext y
  refine View.canon_apply_of_pieces (rowsTimes X R) _ ?_ y (cover0_A_2 c i a1 h1 a2 h2 a3 h3 X R y)
  unfold kernelRun0_A
  dsimp only
  intro pc hpc
  simp only [List.mem_cons, List.mem_nil_iff, or_false] at hpc
  rcases hpc with rfl | rfl
  · intro x
    obtain ⟨p, q, rfl⟩ : ∃ (p : Fin 8192) (q : Fin 128), x = ix2 p q := ⟨x 0, x 1, eq_ix2 x⟩
    refine (second_half_apply _ _ p q).trans ?_
    unfold rowsTimes
    refine Finset.sum_congr rfl fun k _ => ?_
    simp only [View.readAt_eq_ld, h1.read_unread, h2.read_unread]
    refine congrArg₂ (· * ·) (congrArg X (funext fun a => Fin.ext ?_)) (congrArg R (funext fun a => Fin.ext ?_))
    · match a with
      | ⟨0, _⟩ => rfl
      | ⟨1, _⟩ => show 0 + 1 * k.val = k.val; omega
    · match a with
      | ⟨0, _⟩ => show 0 + 1 * k.val = k.val; omega
      | ⟨1, _⟩ => rfl
  · intro x
    obtain ⟨p, q, rfl⟩ : ∃ (p : Fin 8192) (q : Fin 128), x = ix2 p q := ⟨x 0, x 1, eq_ix2 x⟩
    refine (first_half_apply _ _ p q).trans ?_
    unfold rowsTimes
    refine Finset.sum_congr rfl fun k _ => ?_
    simp only [View.readAt_eq_ld, h1.read_unread, h2.read_unread]
    refine congrArg₂ (· * ·) (congrArg X (funext fun a => Fin.ext ?_)) (congrArg R (funext fun a => Fin.ext ?_))
    · match a with
      | ⟨0, _⟩ => rfl
      | ⟨1, _⟩ => show 0 + 1 * k.val = k.val; omega
    · match a with
      | ⟨0, _⟩ => show 0 + 1 * k.val = k.val; omega
      | ⟨1, _⟩ => rfl

end Cert.Rotation.Block

end
-- ==== Proof.KernelArray.lean ====
/-
  The kernel's output array after the run: the [524288, 128] matrix times `R`.

  Grid point `t` (of 32) works on rows 16384·t … 16384·t + 16383: the input window's block and the output
  window's block sit at the same rows, and the matrix `R` is one block, the same at every point.  So what point
  `t` writes back is block `t` of ONE function of the whole arrays — every row of the matrix times `R` — and the 32
  blocks tile the output array: row `r` is written at point `r / 16384`.
-/
import proofs.«177849_j70746701300434_2_alg».proof.Proof.KernelBlock

noncomputable section

open scoped BigOperators

namespace Cert.Rotation.Array

open Cert.KernelIdeal Cert.KernelIdeal.Gen Idealize.ShloMosaic Idealize.ShloMosaic.ValueIdx
open Idealize.ShloMosaic.TcCoe Idealize.SL.Sem Cert.Rotation.Block
open Idealize.ShloMosaic.Pipeline (Dat)

variable (m : (ℓ : Loc nD τ sig) → Buf (Elt Ideal) ℓ) (ρ : Dev nD → PrngReg)

/-- Every row of the flattened matrix, as a row vector, times `R`. -/
def matTimes (A : Vec Ideal S524288x128 .f32) (R : Vec Ideal S128x128 .bf16) : Vec Ideal S524288x128 .f32 :=
  fun i => ∑ k : Fin 128, A (ix2 (i 0) k) * R (ix2 k (i 1))

/-- The windows' block indices at point `t`: input and output rows move together, block `t`; the matrix stays. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the matrix product of the arrays the region finds. -/
theorem flushed_eq (c : Dev nD) (t : Fin cfg0.N) :
    (dats m 0 c).flushed 2 t
      = ((cfg0.win 2).blk t).view.read (Elt Ideal) (matTimes (V m c main_v2) (V m c main_v0)) := by
  show (cfg0.win 2).cut (grid0.coords t) ((dats m 0 c).after 2 t) = _
  rw [after0_2]
  unfold outsAt0
  refine (block_out c _ _ _ _ _ _ _ (iblk m c 0 t) (iblk m c 1 t)).trans ?_
  obtain ⟨e0, e1, e2, e3, e4, e5⟩ := block_indices t
  funext j
  show rowsTimes (iblk m c 0 t) (iblk m c 1 t) j
    = matTimes (V m c main_v2) (V m c main_v0) (((cfg0.win 2).blk t).view.emb j)
  unfold rowsTimes matTimes
  refine Finset.sum_congr rfl fun k _ => ?_
  refine congrArg₂ (· * ·) ?_ ?_
  · show V m c main_v2 (((cfg0.win 0).blk t).view.emb (ix2 (j 0) k))
      = V m c main_v2 (ix2 ((((cfg0.win 2).blk t).view.emb j) 0) k)
    refine congrArg (V m c main_v2) (funext fun a => Fin.ext ?_)
    match a with
    | ⟨0, _⟩ =>
      show win0_0.index t (0 : Fin 2) * 16384 + 1 * (j 0).val = win0_2.index t (0 : Fin 2) * 16384 + 1 * (j 0).val
      rw [e0, e4]
    | ⟨1, _⟩ =>
      show win0_0.index t (1 : Fin 2) * 128 + 1 * k.val = k.val
      rw [e1]; omega
  · show V m c main_v0 (((cfg0.win 1).blk t).view.emb (ix2 k (j 1)))
      = V m c main_v0 (ix2 k ((((cfg0.win 2).blk t).view.emb j) 1))
    refine congrArg (V m c main_v0) (funext fun a => Fin.ext ?_)
    match a with
    | ⟨0, _⟩ =>
      show win0_1.index t (0 : Fin 2) * 128 + 1 * k.val = k.val
      rw [e2]; omega
    | ⟨1, _⟩ =>
      show win0_1.index t (1 : Fin 2) * 128 + 1 * (j 1).val = win0_2.index t (1 : Fin 2) * 128 + 1 * (j 1).val
      rw [e3, e5]

/-- An index of the output array is in point `t`'s block iff each coordinate is in the block's range on its axis. -/
theorem mem_blk (t : Fin cfg0.N) (i : S524288x128.Idx) :
    i ∈ ((cfg0.win 2).blk t).view.set ↔ ∀ a : Fin 2, win0_2.index t a * S16384x128.size a ≤ (i a).val
      ∧ (i a).val < win0_2.index t a * S16384x128.size a + S16384x128.size a := by
  show i ∈ ((View.whole main_v3).slice (win0_2.rect t)).set ↔ _
  rw [View.set_slice_whole, Rect.mem_set_unit]
  exact Iff.rfl

/-- The 32 blocks tile the output array: row `r` lies in the block of point `r / 16384`. -/
theorem cover (i : S524288x128.Idx) :
    ∃ t : Fin cfg0.N, (cfg0.win 2).flush t = true ∧ i ∈ ((cfg0.win 2).blk t).view.set := by
  have hi0 : (i 0).val < 524288 := (i 0).isLt
  have hi1 : (i 1).val < 128 := (i 1).isLt
  have hN : cfg0.N = 32 := N_0
  obtain ⟨t, ht⟩ : ∃ t : Fin cfg0.N, t.val = (i 0).val / 16384 := ⟨⟨(i 0).val / 16384, by rw [hN]; omega⟩, rfl⟩
  obtain ⟨-, -, -, -, e4, e5⟩ := block_indices t
  refine ⟨t, flush0_2 t, ?_⟩
  rw [mem_blk]
  intro a
  match a with
  | ⟨0, _⟩ =>
    show win0_2.index t (0 : Fin 2) * 16384 ≤ (i 0).val ∧ (i 0).val < win0_2.index t (0 : Fin 2) * 16384 + 16384
    rw [e4, ht]; omega
  | ⟨1, _⟩ =>
    show win0_2.index t (1 : Fin 2) * 128 ≤ (i 1).val ∧ (i 1).val < win0_2.index t (1 : Fin 2) * 128 + 128
    rw [e5]; omega

/-- The output array after the run is the matrix the region finds times the matrix `R` it finds. -/
theorem final (c : Dev nD) :
    (dats m 0 c).arrAt 2 cfg0.N = matTimes (V m c main_v2) (V m c main_v0) :=
  (dats m 0 c).arrAt_eq_of_cover 2 (matTimes (V m c main_v2) (V m c main_v0)) (fun t _ => flushed_eq m c t) cover

end Cert.Rotation.Array

end
-- ==== Proof.Spec.lean ====
/-
  The blockwise rotation, as one function of the two argument arrays.

  The array `x` of shape [4, 4096, 4096] is read as 4·4096·32 groups of 128 consecutive entries along its
  last axis; each group, a row vector of length 128, is multiplied by the 128 × 128 matrix `R`:

      y[a, b, 128·g + c] = ∑ₖ x[a, b, 128·g + k] · R[k, c]          (k < 128).

  Both programs compute this sum entry by entry; they differ only in how they lay the groups out (the kernel as
  the rows of a [524288, 128] matrix cut into blocks of 16384 rows, the reference as a rank-4 array), so no law
  of arithmetic beyond the sum itself is needed and the finiteness of the inputs is never used.
-/
import Idealize.ShloMosaic.PureOps.Ideal
import Idealize.ShloMosaic.Lib.ValueIdx

noncomputable section

open scoped BigOperators

namespace Cert.Rotation

open Idealize.ShloMosaic Idealize.ShloMosaic.ValueIdx

/-- The shape of `x` and of the result. -/
abbrev SX : Shape := ⟨3, ![4, 4096, 4096]⟩
/-- The shape of the rotation matrix. -/
abbrev SR : Shape := ⟨2, ![128, 128]⟩

/-- The entry of `x` in the same group of 128 as `i`, at position `k` of the group. -/
def groupIdx (i : SX.Idx) (k : Fin 128) : SX.Idx :=
  ix3 (i 0) (i 1) (⟨(i 2).val / 128 * 128 + k.val, by
    have h2 : (i 2).val < 4096 := (i 2).isLt
    have hk : k.val < 128 := k.isLt
    show (i 2).val / 128 * 128 + k.val < 4096
    omega⟩ : Fin 4096)

/-- The entry of the matrix in row `k`, in the column that is `i`'s position inside its group. -/
def laneIdx (i : SX.Idx) (k : Fin 128) : SR.Idx :=
  ix2 k (⟨(i 2).val % 128, Nat.mod_lt _ (by decide)⟩ : Fin 128)

/-- The rotated array: every group of 128 entries of `x`, as a row vector, times `R`. -/
def rotate (x : SX.Idx → EReal) (R : SR.Idx → EReal) : SX.Idx → EReal :=
  fun i => ∑ k : Fin 128, x (groupIdx i k) * R (laneIdx i k)

end Cert.Rotation

end
-- ==== Proof.Layout.lean ====
/-
  The two ways of laying out the groups of 128.

  The kernel flattens `x` of shape [4, 4096, 4096] to a matrix of shape [524288, 128] (through [4, 4096, 32, 128]),
  one group of 128 per row, and unflattens its product the same way back.  All three shapes are row-major
  arrangements of the same 2^26 positions, so entry `(a, b, c)` of the rank-3 array is entry
  `((a · 4096 + b) · 32 + c / 128, c % 128)` of the matrix, and entry `k` of that row is `x[a, b, 128 · (c / 128) + k]`.
-/
import proofs.«177849_j70746701300434_2_alg».proof.Proof.Spec
import Idealize.ShloMosaic.Lib.Pipeline.Value
import Idealize.ShloMosaic.Lib.ValueIdx

noncomputable section

namespace Cert.Rotation.Layout

open Idealize.ShloMosaic Idealize.ShloMosaic.ValueIdx Cert.Rotation

/-- `x` with its last axis split into (group, position). -/
abbrev SG : Shape := ⟨4, ![4, 4096, 32, 128]⟩
/-- One group per row. -/
abbrev SM : Shape := ⟨2, ![524288, 128]⟩

/-- The row of the matrix that holds the group of entry `i`. -/
def rowOf (i : SX.Idx) : Fin 524288 :=
  ⟨((i 0).val * 4096 + (i 1).val) * 32 + (i 2).val / 128, by
    have h0 : (i 0).val < 4 := (i 0).isLt
    have h1 : (i 1).val < 4096 := (i 1).isLt
    have h2 : (i 2).val < 4096 := (i 2).isLt
    omega⟩

/-- The position of entry `i` inside its group. -/
def colOf (i : SX.Idx) : Fin 128 := ⟨(i 2).val % 128, Nat.mod_lt _ (by decide)⟩

/-- The group of entry `i` along the last axis. -/
def groupOf (i : SX.Idx) : Fin 32 := ⟨(i 2).val / 128, by have h2 : (i 2).val < 4096 := (i 2).isLt; omega⟩

/-- Unflattening: entry `i` of the rank-3 array is the matrix at (row of `i`'s group, position of `i` in it). -/
theorem unflatten_apply {α : Type} (Y : SM.Idx → α) (h : SM.ShapeCasts SX) (i : SX.Idx) :
    shapeCast SX Y h i = Y (ix2 (rowOf i) (colOf i)) := by
  refine shapeCast_apply Y h i _ ?_
  rewrite [Shape.rowMajor_val_two, Shape.rowMajor_val_three]
  have h0 : (i 0).val < 4 := (i 0).isLt
  have h1 : (i 1).val < 4096 := (i 1).isLt
  have h2 : (i 2).val < 4096 := (i 2).isLt
  show (((i 0).val * 4096 + (i 1).val) * 32 + (i 2).val / 128) * 128 + (i 2).val % 128
    = ((i 0).val * 4096 + (i 1).val) * 4096 + (i 2).val
  omega

/-- Flattening: position `k` of the row that holds `i`'s group is `x` at position `k` of that group. -/
theorem flatten_apply {α : Type} (x : SX.Idx → α) (h1 : SX.ShapeCasts SG) (h2 : SG.ShapeCasts SM) (i : SX.Idx)
    (k : Fin 128) : shapeCast SM (shapeCast SG x h1) h2 (ix2 (rowOf i) k) = x (groupIdx i k) := by
  have b0 : (i 0).val < 4 := (i 0).isLt
  have b1 : (i 1).val < 4096 := (i 1).isLt
  have b2 : (i 2).val < 4096 := (i 2).isLt
  have bk : k.val < 128 := k.isLt
  refine (shapeCast_apply (shapeCast SG x h1) h2 (ix2 (rowOf i) k) (ix4 (i 0) (i 1) (groupOf i) k) ?_).trans
    (shapeCast_apply x h1 (ix4 (i 0) (i 1) (groupOf i) k) (groupIdx i k) ?_)
  · rewrite [Shape.rowMajor_val_four, Shape.rowMajor_val_two]
    show (((i 0).val * 4096 + (i 1).val) * 32 + (i 2).val / 128) * 128 + k.val
      = (((i 0).val * 4096 + (i 1).val) * 32 + (i 2).val / 128) * 128 + k.val
    rfl
  · rewrite [Shape.rowMajor_val_three, Shape.rowMajor_val_four]
    show ((i 0).val * 4096 + (i 1).val) * 4096 + ((i 2).val / 128 * 128 + k.val)
      = (((i 0).val * 4096 + (i 1).val) * 32 + (i 2).val / 128) * 128 + k.val
    omega

end Cert.Rotation.Layout

end
-- ==== Proof.KernelProgram.lean ====
/-
  The kernel's whole program: flatten, rotate block by block, unflatten.

  Before the region the program rounds `R` to the narrower float format (the identity on the extended reals) and
  flattens `x` to the [524288, 128] matrix, one group of 128 per row; after it, it unflattens the product back to
  [4, 4096, 4096].  The region leaves the matrix product (module KernelArray).  Read at an entry `i`: unflattening
  sends `i` to (row of its group, position in the group), the product there is the sum over `k` of the row's
  entry `k` — which flattening took from `x` at position `k` of `i`'s group — times `R[k, position]`.  That is the
  rotation of the specification.
-/
import proofs.«177849_j70746701300434_2_alg».proof.Proof.KernelArray
import proofs.«177849_j70746701300434_2_alg».proof.Proof.Layout
import Idealize.ShloMosaic.Lib.StableHlo.Run

noncomputable section

open scoped BigOperators

namespace Cert.Rotation.Program

open Cert.KernelIdeal Cert.KernelIdeal.Gen Idealize.ShloMosaic Idealize.ShloMosaic.ValueIdx
open Idealize.ShloMosaic.TcCoe Idealize.SL.Sem Cert.Rotation Cert.Rotation.Array Cert.Rotation.Layout
open Idealize.ShloMosaic.Pipeline (Dat)

variable (m : (ℓ : Loc nD τ sig) → Buf (Elt Ideal) ℓ) (ρ : Dev nD → PrngReg)

/-- The matrix the region finds: `x` flattened, one group of 128 per row. -/
theorem entry_matrix (c : Dev nD) :
    V m c main_v2
      = shapeCast S524288x128 (shapeCast S4x4096x32x128 (m ((c : Thread nD τ).loc main_arg0))
          Facts₀.shapeCasts_S4x4096x4096_S4x4096x32x128) Facts₀.shapeCasts_S4x4096x32x128_S524288x128 := by
  show StableHlo.after hostOps0 (fun b => m (c, b)) (Proc.devRef .tc main_v2) = _
  after_results <;> rfl

/-- The rotation matrix the region finds: `R` in the narrower format, the same extended reals. -/
theorem entry_rotation (c : Dev nD) :
    V m c main_v0
      = truncf (F := Ideal) (s := S128x128) .bf16 (m ((c : Thread nD τ).loc main_arg1)) Facts₀.bitsLt_bf16_f32 := by
  show StableHlo.after hostOps0 (fun b => m (c, b)) (Proc.devRef .tc main_v0) = _
  after_results <;> rfl

/-- The program's result: the region's output array, unflattened. -/
theorem result_eq (c : Dev nD) :
    Pipeline.afterTail₀ cfgs (dats m) 0 (V0 m) [hostOps1] c main_v4
      = shapeCast S4x4096x4096 ((dats m 0 c).arrAt 2 cfg0.N) Facts₀.shapeCasts_S524288x128_S4x4096x4096 := by
  unfold Pipeline.afterTail₀
  show StableHlo.after hostOps1 _ (Proc.devRef .tc main_v4) = _
  after_results
  have e : Pipeline.withArrays (cfgs 0).spec c (V0 m c) (fun w => (dats m 0 c).arrAt w (cfgs 0).N)
      (Proc.tc.devRef main_v3) = (dats m 0 c).arrAt 2 cfg0.N :=
    Pipeline.withArrays_arr spec0 launch0.win.arr_inj c _ _ 2
  rw [e]
  rfl

/-- The program's result is the rotation of its two arguments. -/
theorem result_eq_rotate (c : Dev nD) :
    Pipeline.afterTail₀ cfgs (dats m) 0 (V0 m) [hostOps1] c main_v4
      = rotate (m ((c : Thread nD τ).loc main_arg0)) (m ((c : Thread nD τ).loc main_arg1)) := by
  rw [result_eq, final, entry_matrix, entry_rotation]
  funext i
  rw [unflatten_apply]
  unfold matTimes rotate
  show @Eq EReal _ _
  refine Finset.sum_congr rfl fun k _ => ?_
  refine congrArg₂ (· * ·) ?_ ?_
  · exact flatten_apply (m ((c : Thread nD τ).loc main_arg0)) _ _ i k
  · rfl

/-- The run of the kernel's program: it terminates with its result at the rotation of its arguments, and the
    arguments unchanged. -/
theorem run : θ_run defs (onTc (τ := τ) (main (F := Ideal))) ⟨m, fun _ => 0, ρ⟩ fun r => ∀ c : Dev nD,
      r.2.mem ((c.tc : Thread nD τ).loc main_v4)
        = rotate (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v4 (Pipeline.mem_restRefs_of main_v4 (by decide) (by decide))).trans (result_eq_rotate m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.Rotation.Program

end
-- ==== Proof.RefRotate.lean ====
/-
  The reference is the rotation of the specification.

  The reference reshapes `x` to [4, 4096, 32, 128], contracts the last axis with the first axis of `R`, and
  reshapes back.  Read at an index `i = (a, b, c)` of the result: the outer reshape sends `i` to
  `(a, b, c / 128, c % 128)` (the same row-major position), the contraction sums over `k < 128` the products of
  the reshaped `x` at `(a, b, c / 128, k)` and `R` at `(k, c % 128)`, and the inner reshape reads `x` at
  `(a, b, 128 · (c / 128) + k)` — the entry of `i`'s group at position `k`.
-/
import proofs.«177849_j70746701300434_2_alg».proof.Proof.Gen.ReferenceIdeal.Read
import proofs.«177849_j70746701300434_2_alg».proof.Proof.Spec

noncomputable section

open scoped BigOperators

namespace Cert.Rotation.Reference

open Cert.ReferenceIdeal Cert.ReferenceIdeal.Read Idealize.ShloMosaic Idealize.ShloMosaic.ValueIdx Cert.Rotation

/-- Row-major arithmetic of the two reshapes: splitting the last axis as (group, position), replacing the
    position by `k`, and joining again lands in the same group at position `k`. -/
theorem regroup (a b c k : Nat) (ha : a < 4) (hb : b < 4096) (hc : c < 4096) (hk : k < 128) :
    let n := (a * 4096 + b) * 4096 + c
    let j := ((n / 16777216 * 4096 + n / 4096 % 4096) * 32 + n / 128 % 32) * 128 + k
    j / 16777216 = a ∧ j / 4096 % 4096 = b ∧ j % 4096 = c / 128 * 128 + k ∧ n % 128 = c % 128 := by
  intro n j
  omega

/-- The entry of `x` the reference multiplies at position `k` of the sum for `i`. -/
theorem left_index (i : S4x4096x4096.Idx) (k : Fin 128) :
    idx_main_v0 (lidx_main_v1 (idx_main_v2 i) k) = groupIdx i k := by
  obtain ⟨h0, h1, h2, -⟩ := regroup (i 0).val (i 1).val (i 2).val k.val (i 0).isLt (i 1).isLt (i 2).isLt k.isLt
  funext a
  apply Fin.ext
  match a with
  | ⟨0, _⟩ => exact h0
  | ⟨1, _⟩ => exact h1
  | ⟨2, _⟩ => exact h2

/-- The entry of `R` the reference multiplies at position `k` of the sum for `i`. -/
theorem right_index (i : S4x4096x4096.Idx) (k : Fin 128) :
    ridx_main_v1 (idx_main_v2 i) k = laneIdx i k := by
  obtain ⟨-, -, -, h3⟩ := regroup (i 0).val (i 1).val (i 2).val k.val (i 0).isLt (i 1).isLt (i 2).isLt k.isLt
  funext a
  apply Fin.ext
  match a with
  | ⟨0, _⟩ => rfl
  | ⟨1, _⟩ => exact h3

/-- The reference's result, as a function of its two arguments, is the rotation. -/
theorem result_eq_rotate (x : (⟨S4x4096x4096, .f32⟩ : BufTy).Contents (Elt Ideal))
    (R : (⟨S128x128, .f32⟩ : BufTy).Contents (Elt Ideal)) :
    val_main_v2 (F := Ideal) x R = rotate x R := by
  funext i
  rw [val_main_v2_apply, val_main_v1_apply]
  unfold rotate
  refine Finset.sum_congr rfl fun k _ => ?_
  rw [val_main_v0_apply, left_index, right_index]

end Cert.Rotation.Reference

end
-- ==== Proof.lean ====
/-
  The blockwise rotation `y = x · R` on groups of 128 along the last axis of `x`: the kernel against its reference,
  over the extended reals.

  Both programs compute, at every entry `(a, b, c)`,

      y[a, b, c] = ∑ₖ x[a, b, 128 · (c / 128) + k] · R[k, c % 128]          (k < 128)

  (module Spec).  The reference reshapes `x` to [4, 4096, 32, 128], contracts the last axis with `R` and reshapes
  back (module RefRotate).  The kernel flattens `x` to a [524288, 128] matrix, multiplies it by `R` in 32 blocks of
  16384 rows, each block in two halves on the matrix unit with `R` held in a narrower float format, and unflattens
  (modules KernelBlock, KernelArray, Layout, KernelProgram).  A change of float format is the identity on the
  extended reals and the two layouts name the same row-major positions, so the two results are the same sums,
  term by term: no law of arithmetic is used and the finiteness of the inputs is never needed.  The ideal pass
  rewrote nothing, so the kernel's idealization is its own text read on the extended reals.
-/
import proofs.«177849_j70746701300434_2_alg».proof.Defs
import proofs.«177849_j70746701300434_2_alg».proof.Proof.Gen.Kernel
import proofs.«177849_j70746701300434_2_alg».proof.Proof.Gen.Kernel.Skeleton
import proofs.«177849_j70746701300434_2_alg».proof.Proof.Gen.Kernel.Launch
import proofs.«177849_j70746701300434_2_alg».proof.Proof.Gen.Kernel.Points
import proofs.«177849_j70746701300434_2_alg».proof.Proof.Gen.Kernel.Frame
import proofs.«177849_j70746701300434_2_alg».proof.Proof.Gen.KernelIdeal
import proofs.«177849_j70746701300434_2_alg».proof.Proof.Gen.KernelIdeal.Skeleton
import proofs.«177849_j70746701300434_2_alg».proof.Proof.Gen.KernelIdeal.Launch
import proofs.«177849_j70746701300434_2_alg».proof.Proof.Gen.KernelIdeal.Points
import proofs.«177849_j70746701300434_2_alg».proof.Proof.Gen.KernelIdeal.Frame
import proofs.«177849_j70746701300434_2_alg».proof.Proof.Gen.ReferenceIdeal
import proofs.«177849_j70746701300434_2_alg».proof.Proof.Gen.ReferenceIdeal.Run
import proofs.«177849_j70746701300434_2_alg».proof.Proof.Gen.ReferenceIdeal.Read
import proofs.«177849_j70746701300434_2_alg».proof.Proof.Gen.Pre_finite_inputs
import proofs.«177849_j70746701300434_2_alg».proof.Proof.KernelProgram
import proofs.«177849_j70746701300434_2_alg».proof.Proof.RefRotate
import Idealize.ShloMosaic.Adequacy
import Idealize.ShloMosaic.Init

noncomputable section

namespace Cert.Proof

open Idealize.ShloMosaic Idealize.SL.Sem

/-- The kernel as printed runs and keeps its arguments. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference's run, with its result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- On the extended reals both programs end at the rotation of their (agreeing) arguments. -/
theorem algebraic : Cert.algebraic_KernelIdeal_ReferenceIdeal := by
  intro m ρ m' ρ' _ hagree
  refine ⟨fun c => Cert.Rotation.rotate
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.Rotation.Program.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v2_eq, Cert.Rotation.Reference.result_eq_rotate,
    (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
